-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384 : Shape := ⟨2, ![1024, 16384]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel

variable [Facts]

def fn {F : FTy → Type} [FloatOps F] (main_arg0 : FVec F S1024x16384 .f32) (main_arg1 : FVec F S1024x16384 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  main_v8
-- ==== Kernel.lean ====
abbrev S1024x16384 : Shape := ⟨2, ![1024, 16384]⟩
abbrev S1024x1 : Shape := ⟨2, ![1024, 1]⟩
abbrev S64x16384 : Shape := ⟨2, ![64, 16384]⟩
abbrev S64x1 : Shape := ⟨2, ![64, 1]⟩
abbrev S64 : Shape := ⟨1, ![64]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S1024x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S64x16384, .f32⟩
  | .local _ .vmem, ⟨1, _⟩ => ⟨S64x16384, .f32⟩
  | .local _ .vmem, ⟨2, _⟩ => ⟨S64x16384, .f32⟩
  | .local _ .vmem, ⟨3, _⟩ => ⟨S64x16384, .f32⟩
  | .local _ .vmem, ⟨4, _⟩ => ⟨S64x1, .f32⟩
  | .local _ .vmem, ⟨5, _⟩ => ⟨S64x1, .f32⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x16384_S64x16384_0_0 : ∀ a, (![0, 0] : Fin 2 → Nat) a + S64x16384.size a ≤ S64x16384.size a
  h_S64x16384 : 0 < S64x16384.numel
  reduces_S64x16384_S64 : S64x16384.Reduces [1] S64
  shapeCasts_S64_S64x1 : S64.ShapeCasts S64x1
  broadcasts_S64x1_S64x16384 : S64x1.Broadcasts S64x16384
  inb_S64x1_S64x1_0_0 : ∀ a, (![0, 0] : Fin 2 → Nat) a + S64x1.size a ≤ S64x1.size a
  h_S64x1 : 0 < S64x1.numel
  reducesTo_S1024x1_S_d0_1 : S1024x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S1024x16384.size a
  hwx0_0 : ∀ i : grid0.Coords, EltTy.bits .f32 = 32 ∨ (Rect.block (s := S1024x16384) S64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16384.size a ≤ S1024x16384.size a
  hwx0_1 : ∀ i : grid0.Coords, EltTy.bits .f32 = 32 ∨ (Rect.block (s := S1024x16384) S64x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S1024x1.size a
  hwx0_2 : ∀ i : grid0.Coords, EltTy.bits .f32 = 32 ∨ (Rect.block (s := S1024x1) S64x1.size (cc0_transform_2 i) (hinb0_2 i)).WholeWords (EltTy.packing .f32)

variable [Facts₀]

abbrev win0_0 : Pipeline.Window sig grid0 :=
  Pipeline.Window.ofSpec (Memref.whole main_arg0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x16384 : Shape := ⟨2, ![1024, 16384]⟩
abbrev S_ : Shape := ⟨0, ![]⟩
abbrev S1024 : Shape := ⟨1, ![1024]⟩
abbrev S1024x1 : Shape := ⟨2, ![1024, 1]⟩

abbrev nBuf : Space → Nat
  | .hbm => 68
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S_, .f32⟩
  | .hbm, ⟨3, _⟩ => ⟨S1024, .f32⟩
  | .hbm, ⟨4, _⟩ => ⟨S1024x1, .f32⟩
  | .hbm, ⟨5, _⟩ => ⟨S_, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x16384, .f32⟩
  | .hbm, ⟨15, _⟩ => ⟨S1024x16384, .f32⟩
  | .hbm, ⟨16, _⟩ => ⟨S1024x16384, .f32⟩
  | .hbm, ⟨17, _⟩ => ⟨S1024x16384, .f32⟩
  | .hbm, ⟨18, _⟩ => ⟨S1024x16384, .f32⟩
  | .hbm, ⟨19, _⟩ => ⟨S_, .f32⟩
  | .hbm, ⟨20, _⟩ => ⟨S1024, .f32⟩
  | .hbm, ⟨21, _⟩ => ⟨S1024x16384, .f32⟩
  | .hbm, ⟨22, _⟩ => ⟨S_, .f32⟩
  | .hbm, ⟨23, _⟩ => ⟨S1024, .f32⟩
  | .hbm, ⟨24, _⟩ => ⟨S1024x16384, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .i1⟩
  | .hbm, ⟨38, _⟩ => ⟨S_, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .i1⟩
  | .hbm, ⟨46, _⟩ => ⟨S_, .f32⟩
  | .hbm, ⟨47, _⟩ => ⟨S1024, .f32⟩
  | .hbm, ⟨48, _⟩ => ⟨S1024, .i1⟩
  | .hbm, ⟨49, _⟩ => ⟨S1024, .i1⟩
  | .hbm, ⟨50, _⟩ => ⟨S_, .f32⟩
  | .hbm, ⟨51, _⟩ => ⟨S1024, .f32⟩
  | .hbm, ⟨52, _⟩ => ⟨S1024, .i1⟩
  | .hbm, ⟨53, _⟩ => ⟨S1024, .i1⟩
  | .hbm, ⟨54, _⟩ => ⟨S1024, .i1⟩
  | .hbm, ⟨55, _⟩ => ⟨S1024, .i1⟩
  | .hbm, ⟨56, _⟩ => ⟨S1024, .i1⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_call0_v0 : Ref sig .tc := ⟨.hbm, 39, rfl⟩
abbrev main_call0_v1 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_cst_11 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_12 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_cst_14 : Ref sig .tc := ⟨.hbm, 60, rfl⟩
abbrev main_call1_v0 : Ref sig .tc := ⟨.hbm, 61, rfl⟩
abbrev main_call1_v1 : Ref sig .tc := ⟨.hbm, 62, rfl⟩
abbrev main_v41 : Ref sig .tc := ⟨.hbm, 63, rfl⟩
abbrev main_cst_15 : Ref sig .tc := ⟨.hbm, 64, rfl⟩
abbrev main_v42 : Ref sig .tc := ⟨.hbm, 65, rfl⟩
abbrev main_cst_16 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  reducesTo_S1024x16384_S1024_d1 : S1024x16384.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x16384_0_1 : S1024x1.BroadcastsInDim S1024x16384 (![0, 1] : Fin 2 → Fin S1024x16384.rank)
  bcast_S_S1024 : S_.BroadcastsInDim S1024 (![] : Fin 0 → Fin S1024.rank)
  reducesTo_S1024_S_d0 : S1024.ReducesTo [0] S_

variable [Facts₀]

class Facts : Prop extends Facts₀ where

variable [Facts]
-- ==== Proof.PearsonSpec.lean ====
/-
  The Pearson loss over the extended reals, as one function of two arrays.

  For a row `p` of length `n` the mean is `(∑ₖ pₖ) · c`, with `c` the word that denotes `1/16384`; the deviations
  are `pₖ - mean p`; a pair of rows `p, t` has the sums of squares `∑ (dev p)²`, `∑ (dev t)²` and the cross sum
  `∑ dev p · dev t`; the correlation is the cross sum over `√(∑(dev p)² · ∑(dev t)²)` (over one where that root is
  not positive), and a row's loss is `1 - correlation` where both variances `∑(dev)²/16383` exceed `ε`, the root is
  positive and the correlation equals itself, and `1` elsewhere. The loss of two `[1024, 16384]` arrays is the sum of
  their 1024 row losses over 1024.

  Two facts join the two programs' spellings of it: dividing by the word for `16384` is multiplying by the word for
  `1/16384` on every extended real (the infinities included), and on one bit `b xor 1` is `not b`.
-/
import Idealize.ShloMosaic.PureOps.Ideal
import Idealize.ShloMosaic.PureOps.Ideal.Laws
import Idealize.ShloMosaic.Lib.ValueIdx

open scoped BigOperators

noncomputable section

namespace Cert.Pearson

open Idealize.ShloMosaic Idealize.ShloMosaic.ValueIdx

/-! ## The constants, as the words both programs spell -/

/-- `0.0`. -/
abbrev wZero : EReal := Ideal.ofBits .f32 0x00000000#32
/-- `1.0`. -/
abbrev wOne : EReal := Ideal.ofBits .f32 0x3F800000#32
/-- `2⁻¹⁴`, the reciprocal of a row's length. -/
abbrev wInvLen : EReal := Ideal.ofBits .f32 0x38800000#32
/-- `16384.0`, a row's length. -/
abbrev wLen : EReal := Ideal.ofBits .f32 0x46800000#32
/-- `16383.0`, the unbiased variance's divisor. -/
abbrev wLenM1 : EReal := Ideal.ofBits .f32 0x467FFC00#32
/-- The variance threshold `ε` (the f32 nearest `1e-5`). -/
abbrev wEps : EReal := Ideal.ofBits .f32 0x3727C5AC#32
/-- `1024.0`, the number of rows. -/
abbrev wRows : EReal := Ideal.ofBits .f32 0x44800000#32

/-! ## A row's statistics -/

variable {n : ℕ}

/-- A row's mean: its sum times the reciprocal of the length. -/
def mean (p : Fin n → EReal) : EReal := (∑ k, p k) * wInvLen
/-- An entry's deviation from its row's mean. -/
def dev (p : Fin n → EReal) (k : Fin n) : EReal := p k - mean p
/-- The sum of a row's squared deviations. -/
def sumSq (p : Fin n → EReal) : EReal := ∑ k, dev p k * dev p k
/-- The sum of the products of two rows' deviations. -/
def cross (p t : Fin n → EReal) : EReal := ∑ k, dev p k * dev t k
/-- The root of the product of the two sums of squares. -/
def denom (p t : Fin n → EReal) : EReal := Ideal.sqrt (sumSq p * sumSq t)
/-- That root where it is positive, one elsewhere. -/
def safeDenom (p t : Fin n → EReal) : EReal := Scalar.select (Ideal.cmp .ogt (denom p t) wZero) (denom p t) wOne
/-- The correlation of two rows. -/
def corr (p t : Fin n → EReal) : EReal := Ideal.div (cross p t) (safeDenom p t)
/-- Where the correlation counts: both variances above `ε`, the root positive, the correlation equal to itself. -/
def valid (p t : Fin n → EReal) : BitVec 1 :=
  IntOp.andi (IntOp.andi (IntOp.andi (Ideal.cmp .ogt (Ideal.div (sumSq p) wLenM1) wEps) (Ideal.cmp .ogt (Ideal.div (sumSq t) wLenM1) wEps))
    (Ideal.cmp .ogt (denom p t) wZero)) (~~~(Ideal.cmp .une (corr p t) (corr p t)))
/-- A pair of rows' loss. -/
def rowLoss (p t : Fin n → EReal) : EReal := Scalar.select (valid p t) (wOne - corr p t) wOne

/-- Row `r` of an `[a, b]` array. -/
def row {a b : ℕ} (x : (⟨2, ![a, b]⟩ : Shape).Idx → EReal) (r : Fin a) : Fin b → EReal := fun k => x (ix2 r k)

/-- The loss of two `[1024, 16384]` arrays: the mean over the rows of the rows' losses. -/
def loss (x y : (⟨2, ![1024, 16384]⟩ : Shape).Idx → EReal) : EReal :=
  Ideal.div (wZero + ∑ r : Fin 1024, rowLoss (row x r) (row y r)) wRows

/-! ## The two spellings of a mean, and of a negation -/

/-- The word `0x46800000` denotes `16384`. -/
theorem wLen_eq : wLen = ((16384 : ℝ) : EReal) := by
  simp [Ideal.ofBits, Ideal.ieee, -EReal.coe_mul]; norm_num

/-- The word `0x38800000` denotes `1/16384`. -/
theorem wInvLen_eq : wInvLen = ((1 / 16384 : ℝ) : EReal) := by
  simp [Ideal.ofBits, Ideal.ieee, -EReal.coe_mul]; norm_num

/-- Dividing by the row length is multiplying by its reciprocal, on every extended real. -/
theorem div_len (x : EReal) : Ideal.div x wLen = x * wInvLen := by
  rw [wLen_eq, wInvLen_eq]
  exact Ideal.div_coe (by norm_num) x

/-- At the extended reals a comparison of two floats is the linear order's. -/
theorem cmpf_ideal {φ : FTy} (p : CmpFPredicate) (x y : Ideal φ) : FloatOps.cmpf p x y = Ideal.cmp p x y := rfl

/-- On one bit, `b xor 1` is `not b`. -/
theorem xor_one_eq_not (b : BitVec 1) : IntOp.xori b 1#1 = ~~~b := by
  revert b; decide

end Cert.Pearson

end
-- ==== Proof.RefIsSpec.lean ====
/-
  The reference computes the Pearson loss of the specification.

  Read one operation at a time and one row at a time: the row mean is the row sum over `16384`, which is the row sum
  times `1/16384`; the centred entries, the two sums of squares and the cross sum are the specification's, entry by
  entry; the remaining per-row operations are the specification's own, in the same order; and the final mean sums the
  1024 row losses, indexed by the rank-one index of a row.
-/
import proofs.«176205_j5145370820692_2_alg».proof.Proof.Gen.ReferenceIdeal.Read
import proofs.«176205_j5145370820692_2_alg».proof.Proof.PearsonSpec

open scoped BigOperators

noncomputable section

namespace Cert.Pearson.Ref

open Cert.ReferenceIdeal Cert.ReferenceIdeal.Read Idealize.ShloMosaic Idealize.ShloMosaic.ValueIdx Cert.Pearson

/-- An argument array of the reference, as extended reals. -/
abbrev Arr : Type := (⟨S1024x16384, .f32⟩ : BufTy).Contents (Elt Ideal)

/-- Row `r` of an argument array. -/
abbrev rowOf (x : Arr) (r : Fin 1024) : Fin 16384 → EReal := row (a := 1024) (b := 16384) x r

/-! ## The first argument's row statistics -/

/-- The first argument's row mean, kept in a column, is the specification's mean of the row. -/
theorem mean0 (x0 : Arr) (r : Fin 1024) (u : Fin 1) : val_main_v3 (F := Ideal) x0 (ix2 r u) = mean (rowOf x0 r) := by
  rw [val_main_v3_apply, val_main_v1_apply, val_main_v0_apply, val_main_v2_apply, val_main_cst_0_apply, val_main_cst_apply]
  simp only [Ideal.hostDivf_def, Ideal.ofBits_def, Ideal.ofBits_zero_f32, zero_add]
  rw [div_len]
  unfold mean
  refine congrArg (· * wInvLen) (Finset.sum_congr rfl fun k _ => ?_)
  exact congrArg x0 (funext fun a => Fin.ext (by match a with | ⟨0, _⟩ => rfl | ⟨1, _⟩ => rfl))

/-- The first argument centred: an entry less its row's mean. -/
theorem dev0 (x0 : Arr) (r : Fin 1024) (k : Fin 16384) : val_main_v9 (F := Ideal) x0 (ix2 r k) = dev (rowOf x0 r) k := by
  rw [val_main_v9_apply, val_main_v8_apply]
  have e : idx_main_v8 (ix2 r k) = ix2 r (0 : Fin 1) := funext fun a => Fin.ext (by match a with | ⟨0, _⟩ => rfl | ⟨1, _⟩ => rfl)
  rw [e, mean0]
  rfl

/-- The first argument's sum of squared deviations, row by row. -/
theorem sumSq0 (x0 : Arr) (r : Fin 1024) : val_main_v13 (F := Ideal) x0 (ix1 r) = sumSq (rowOf x0 r) := by
  rw [val_main_v13_apply, val_main_cst_3_apply]
  simp only [Ideal.ofBits_def, Ideal.ofBits_zero_f32, zero_add]
  unfold sumSq
  refine Finset.sum_congr rfl fun k _ => ?_
  have e : idx_main_v13 (ix1 r) k = ix2 r k := funext fun a => Fin.ext (by match a with | ⟨0, _⟩ => rfl | ⟨1, _⟩ => rfl)
  rw [e, val_main_v12_apply, dev0]
  rfl

/-! ## The second argument's -/

/-- The second argument's row mean is the specification's mean of the row. -/
theorem mean1 (x1 : Arr) (r : Fin 1024) (u : Fin 1) : val_main_v7 (F := Ideal) x1 (ix2 r u) = mean (rowOf x1 r) := by
  rw [val_main_v7_apply, val_main_v5_apply, val_main_v4_apply, val_main_v6_apply, val_main_cst_2_apply, val_main_cst_1_apply]
  simp only [Ideal.hostDivf_def, Ideal.ofBits_def, Ideal.ofBits_zero_f32, zero_add]
  rw [div_len]
  unfold mean
  refine congrArg (· * wInvLen) (Finset.sum_congr rfl fun k _ => ?_)
  exact congrArg x1 (funext fun a => Fin.ext (by match a with | ⟨0, _⟩ => rfl | ⟨1, _⟩ => rfl))

/-- The second argument centred. -/
theorem dev1 (x1 : Arr) (r : Fin 1024) (k : Fin 16384) : val_main_v11 (F := Ideal) x1 (ix2 r k) = dev (rowOf x1 r) k := by
  rw [val_main_v11_apply, val_main_v10_apply]
  have e : idx_main_v10 (ix2 r k) = ix2 r (0 : Fin 1) := funext fun a => Fin.ext (by match a with | ⟨0, _⟩ => rfl | ⟨1, _⟩ => rfl)
  rw [e, mean1]
  rfl

/-- The second argument's sum of squared deviations, row by row. -/
theorem sumSq1 (x1 : Arr) (r : Fin 1024) : val_main_v15 (F := Ideal) x1 (ix1 r) = sumSq (rowOf x1 r) := by
  rw [val_main_v15_apply, val_main_cst_4_apply]
  simp only [Ideal.ofBits_def, Ideal.ofBits_zero_f32, zero_add]
  unfold sumSq
  refine Finset.sum_congr rfl fun k _ => ?_
  have e : idx_main_v15 (ix1 r) k = ix2 r k := funext fun a => Fin.ext (by match a with | ⟨0, _⟩ => rfl | ⟨1, _⟩ => rfl)
  rw [e, val_main_v14_apply, dev1]
  rfl

/-- The cross sum of the two arguments' deviations, row by row. -/
theorem cross01 (x0 x1 : Arr) (r : Fin 1024) : val_main_v17 (F := Ideal) x0 x1 (ix1 r) = cross (rowOf x0 r) (rowOf x1 r) := by
  rw [val_main_v17_apply, val_main_cst_5_apply]
  simp only [Ideal.ofBits_def, Ideal.ofBits_zero_f32, zero_add]
  unfold cross
  refine Finset.sum_congr rfl fun k _ => ?_
  have e : idx_main_v17 (ix1 r) k = ix2 r k := funext fun a => Fin.ext (by match a with | ⟨0, _⟩ => rfl | ⟨1, _⟩ => rfl)
  rw [e, val_main_v16_apply, dev0, dev1]
  rfl

/-! ## A row's loss, and the mean over the rows -/

/-- The reference's per-row result is the specification's loss of the two rows: from the three sums on, the same
    operations in the same order. -/
theorem rowLoss_eq (x0 x1 : Arr) (r : Fin 1024) : val_main_v41 (F := Ideal) x0 x1 (ix1 r) = rowLoss (rowOf x0 r) (rowOf x1 r) := by
  simp only [val_main_v41_apply, val_main_v38_apply, val_main_v40_apply, val_main_call1_v1_apply, val_main_call1_v0_apply,
    val_main_cst_14_apply, val_main_v39_apply, val_main_cst_13_apply, val_main_v35_apply, val_main_v37_apply, val_main_v36_apply,
    val_main_v32_apply, val_main_v34_apply, val_main_v33_apply, val_main_cst_12_apply, val_main_v29_apply, val_main_v31_apply,
    val_main_v28_apply, val_main_v30_apply, val_main_cst_10_apply, val_main_cst_11_apply, val_main_v19_apply, val_main_v21_apply,
    val_main_v18_apply, val_main_v20_apply, val_main_cst_6_apply, val_main_cst_7_apply, val_main_v27_apply, val_main_v26_apply,
    val_main_call0_v1_apply, val_main_call0_v0_apply, val_main_cst_9_apply, val_main_v25_apply, val_main_v24_apply,
    val_main_cst_8_apply, val_main_v23_apply, val_main_v22_apply, sumSq0, sumSq1, cross01]
  unfold rowLoss valid corr safeDenom denom
  simp only [Ideal.hostDivf_def, Ideal.hostUnary_sqrt_def, Ideal.mulf_def, Ideal.subf_def, Ideal.ofBits_def, cmpf_ideal]

/-- The rank-one indices of the rows are the rows. -/
def rowsEquiv : S1024.Idx ≃ Fin 1024 where
  toFun j := j 0
  invFun r := ix1 r
  left_inv j := (eq_ix1 j).symm
  right_inv _ := rfl

/-- The reference's result is the specification's loss of its two arguments. -/
theorem result_eq (x0 x1 : Arr) : val_main_v43 (F := Ideal) x0 x1 = fun _ => loss x0 x1 := by
  funext i
  rw [val_main_v43_apply, val_main_v42_apply, val_main_cst_16_apply, val_main_cst_15_apply]
  simp only [Ideal.hostDivf_def, Ideal.ofBits_def]
  unfold loss
  refine congrArg (fun s => Ideal.div (wZero + s) wRows) ?_
  refine Fintype.sum_equiv rowsEquiv _ _ fun j => ?_
  conv_lhs => rw [eq_ix1 j]
  exact rowLoss_eq x0 x1 (j 0)

end Cert.Pearson.Ref

end
-- ==== Proof.LibRowSum.lean ====
/-
  A lane sum read at one row, over the extended reals: summing an [a, b] array along its second coordinate gives, at
  row p, the sum over the b entries of that row — for any extents and any float format. The inserted index that the
  library's one-axis reduction law speaks of is, at literal rank two, the pair (p, k).
-/
import Idealize.ShloMosaic.Lib.ValueIdx
import Idealize.ShloMosaic.PureOps.Ideal.Laws

open scoped BigOperators

namespace Cert.LibRowSum

open Idealize.ShloMosaic Idealize.ShloMosaic.ValueIdx

/-- A row's sum: the `add` reduction of an `[a, b]` array over its columns reads, at row `p`, the sum of the row's
    `b` entries (the accumulator is the sum's neutral element, so it contributes nothing). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  refine Finset.sum_congr rfl fun k _ => congrArg src ?_
  funext d; apply Fin.ext
  match d with
  | ⟨0, _⟩ => rfl
  | ⟨1, _⟩ => rfl

end Cert.LibRowSum
-- ==== Proof.LibKeepdims.lean ====
/-
  Layout and reduction facts a row-wise kernel needs when its payload is read at one index, over the extended reals:
  the column forms of a "keep the reduced axis" computation — a vector of row values viewed as a one-column matrix,
  and a one-column matrix spread over every column —, a row's maximum as the fold of `max` over the row's entries, the
  two binary words that encode `-∞`, and the two pointwise operations (absolute value, rounding to even) at an index.
-/
import Idealize.ShloMosaic.Lib.ValueLayout
import Idealize.ShloMosaic.PureOps.Ideal.Laws

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section AtIdeal
variable {s : Shape} {φ : FTy}

/-- An absolute value at an index is the larger of the element and its negation … -/
theorem absf_apply (a : FVec Ideal s φ) (i : s.Idx) : absf a i = max (a i) (-(a i)) := rfl
/-- … and a rounding to even rounds the element. -/
theorem roundeven_apply (a : FVec Ideal s φ) (i : s.Idx) : roundeven a i = Ideal.liftRound Ideal.roundHalfEven (a i) := rfl

end AtIdeal

/-- At the extended reals a scalar constant is what its word denotes. -/
theorem scalar_ofBits (φ : FTy) (b : BitVec φ.bits) : Scalar.ofBits (F := Ideal) φ b = Ideal.ofBits φ b := rfl

/-- The f32 word `0xFF800000` is `-∞`. -/
theorem negInf_f32 : Ideal.ofBits .f32 0xFF800000#32 = (⊥ : EReal) := by simp [Ideal.ofBits, Ideal.ieee]
/-- The bf16 word `0xFF80` is `-∞`. -/
theorem negInf_bf16 : Ideal.ofBits .bf16 0xFF80#16 = (⊥ : EReal) := by simp [Ideal.ofBits, Ideal.ieee]

/-- A row's maximum: the `maximumf` reduction of an `[a, b]` array over its columns reads, at row `p`, the fold of
    `max` from the accumulator's value over the row's `b` entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  show (Finset.univ : Finset (Fin b)).fold max (Ideal.ofBits φ acc) (src ∘ h.lift (ix1 p)) = _
  congr 1
  funext k
  show src (h.lift (ix1 p) k) = src (ix2 p k)
  congr 1
  funext d; apply Fin.ext
  match d with
  | ⟨0, _⟩ => rfl
  | ⟨1, _⟩ => rfl

end Cert.LibKeepdims
-- ==== Proof.KernelRow.lean ====
/-
  One grid point's output block is the specification's row loss of the point's two input blocks, row by row.

  A block holds 64 rows of 16384 entries. Read at row `a`: the lane sum of a block is the sum of the row's entries;
  kept as a one-column matrix and spread back over the columns it is the same number at every column; so the centred
  block at `(a, k)` is the row's `k`-th deviation, the three lane sums of products are the row's two sums of squares
  and its cross sum, and the operations that follow are the specification's own at every row. The kernel tests
  "the correlation differs from itself" and flips the bit by an exclusive or with one, where the specification
  negates it: on one bit these agree.
-/
import proofs.«176205_j5145370820692_2_alg».proof.Proof.Gen.KernelIdeal.Frame
import proofs.«176205_j5145370820692_2_alg».proof.Proof.PearsonSpec
import proofs.«176205_j5145370820692_2_alg».proof.Proof.LibRowSum
import proofs.«176205_j5145370820692_2_alg».proof.Proof.LibKeepdims
import Idealize.ShloMosaic.Lib.Pipeline.Value
import Idealize.ShloMosaic.Lib.ValueIdx

open scoped BigOperators

noncomputable section

namespace Cert.Pearson.Kern

open Cert.KernelIdeal Cert.KernelIdeal.Gen Idealize.ShloMosaic Idealize.ShloMosaic.ValueIdx Cert.Pearson
open Cert.LibRowSum Cert.LibKeepdims

/-- An input block of the kernel, as extended reals. -/
abbrev Blk : Type := Vec Ideal S64x16384 .f32

/-- Row `a` of a block. -/
abbrev rowOf (x : Blk) (a : Fin 64) : Fin 16384 → EReal := row (a := 64) (b := 16384) x a

theorem hz : (![0, 0] : Fin 2 → Nat) = fun _ => 0 := funext fun a => by fin_cases a <;> rfl

/-- A block's lane sum, read at row `a`, is the sum of the row's entries (the accumulator word is zero). -/
theorem laneSum (src : FVec Ideal S64x16384 .f32) (hacc : (0x00000000#32 : BitVec 32) = 0x00000000#32) (a : Fin 64) :
    multiReduction .add [1] S64 src 0x00000000#32 reduces_S64x16384_S64 (.inl rfl) hacc (ix1 a) = ∑ k : Fin 16384, src (ix2 a k) :=
  rowSum_apply src 0x00000000#32 reduces_S64x16384_S64 (.inl rfl) hacc a

/-- A square root of a vector, at an index. -/
theorem sqrt_apply {s : Shape} {φ : FTy} (v : FVec Ideal s φ) (i : s.Idx) : sqrt v i = Ideal.sqrt (v i) := rfl

/-- On the extended reals "ordered and different" and "unordered or different" are one test: different. -/
theorem cmp_one_eq_une (x y : EReal) : Ideal.cmp .one x y = Ideal.cmp .une x y := rfl

/-! ## The centred blocks -/

/-- The first block centred: at `(a, k)` the row's `k`-th deviation. -/
theorem centred0 (x0 : Blk) (a : Fin 64) (k : Fin 16384) : k0_pay2 (F := Ideal) x0 (ix2 a k) = dev (rowOf x0 a) k := by
  unfold k0_pay2
  dsimp only
  rw [subf_apply, broadcastTo_a1_ab_apply, mulf_apply, shapeCast_a_a1_apply, broadcast_apply]
  exact congrArg (fun s => x0 (ix2 a k) - s * wInvLen) (laneSum x0 rfl a)

/-- The second block centred. -/
theorem centred1 (x1 : Blk) (a : Fin 64) (k : Fin 16384) : k0_pay3 (F := Ideal) x1 (ix2 a k) = dev (rowOf x1 a) k := by
  unfold k0_pay3
  dsimp only
  rw [subf_apply, broadcastTo_a1_ab_apply, mulf_apply, shapeCast_a_a1_apply, broadcast_apply]
  exact congrArg (fun s => x1 (ix2 a k) - s * wInvLen) (laneSum x1 rfl a)

/-! ## The three lane sums -/

/-- The first block's sum of squared deviations, kept in a column. -/
theorem sumSq0 (x0 : Blk) (a : Fin 64) (u : Fin 1) : k0_pay4 (F := Ideal) x0 (ix2 a u) = sumSq (rowOf x0 a) := by
  unfold k0_pay4
  dsimp only
  rw [shapeCast_a_a1_apply]
  refine (laneSum _ _ a).trans ?_
  unfold sumSq
  refine Finset.sum_congr rfl fun k _ => ?_
  rw [mulf_apply, centred0]

/-- The second block's. -/
theorem sumSq1 (x1 : Blk) (a : Fin 64) (u : Fin 1) : k0_pay5 (F := Ideal) x1 (ix2 a u) = sumSq (rowOf x1 a) := by
  unfold k0_pay5
  dsimp only
  rw [shapeCast_a_a1_apply]
  refine (laneSum _ _ a).trans ?_
  unfold sumSq
  refine Finset.sum_congr rfl fun k _ => ?_
  rw [mulf_apply, centred1]

/-- The root of the product of the two sums of squares. -/
theorem denom01 (x0 x1 : Blk) (a : Fin 64) (u : Fin 1) : k0_pay6 (F := Ideal) x0 x1 (ix2 a u) = denom (rowOf x0 a) (rowOf x1 a) := by
  unfold k0_pay6 denom
  rw [sqrt_apply, mulf_apply, sumSq0, sumSq1]

/-- The correlation: the cross sum over the root where that is positive, over one elsewhere. -/
theorem corr01 (x0 x1 : Blk) (a : Fin 64) (u : Fin 1) : k0_pay7 (F := Ideal) x0 x1 (ix2 a u) = corr (rowOf x0 a) (rowOf x1 a) := by
  unfold k0_pay7
  dsimp only
  rw [divf_apply, select_apply, cmpf_apply, broadcast_apply, broadcast_apply, denom01, shapeCast_a_a1_apply]
  simp only [Ideal.ofBits_def, cmpf_ideal]
  have hnum : multiReduction .add [1] S64 (mulf (k0_pay2 (F := Ideal) x0) (k0_pay3 (F := Ideal) x1)) 0x00000000#32 reduces_S64x16384_S64 (.inl rfl) rfl (ix1 a)
      = cross (rowOf x0 a) (rowOf x1 a) := by
    refine (laneSum _ _ a).trans ?_
    unfold cross
    refine Finset.sum_congr rfl fun k _ => ?_
    rw [mulf_apply, centred0, centred1]
  unfold corr safeDenom
  exact congrArg (fun s => Ideal.div s (Scalar.select (Ideal.cmp .ogt (denom (rowOf x0 a) (rowOf x1 a)) wZero) (denom (rowOf x0 a) (rowOf x1 a)) wOne)) hnum

/-- Both variances exceed the threshold. -/
theorem varOk01 (x0 x1 : Blk) (a : Fin 64) (u : Fin 1) : k0_pay8 (F := Ideal) x0 x1 (ix2 a u)
    = IntOp.andi (Ideal.cmp .ogt (Ideal.div (sumSq (rowOf x0 a)) wLenM1) wEps) (Ideal.cmp .ogt (Ideal.div (sumSq (rowOf x1 a)) wLenM1) wEps) := by
  unfold k0_pay8
  show IntOp.andi (Ideal.cmp .ogt (Ideal.div (k0_pay4 (F := Ideal) x0 (ix2 a u)) wLenM1) wEps)
      (Ideal.cmp .ogt (Ideal.div (k0_pay5 (F := Ideal) x1 (ix2 a u)) wLenM1) wEps) = _
  rw [sumSq0, sumSq1]

/-- The root is positive. -/
theorem denomPos01 (x0 x1 : Blk) (a : Fin 64) (u : Fin 1) : k0_pay9 (F := Ideal) x0 x1 (ix2 a u)
    = Ideal.cmp .ogt (denom (rowOf x0 a) (rowOf x1 a)) wZero := by
  unfold k0_pay9
  rw [cmpf_apply, broadcast_apply, denom01]
  simp only [scalar_ofBits, Ideal.ofBits_def, cmpf_ideal]

/-! ## The stored block -/

/-- The last operations at an index: the three tests and "the correlation equals itself" joined, then the choice
    between one less the correlation and one. -/
theorem chosen (v33 : FVec Ideal S64x1 .f32) (v38 v40 : IVec S64x1 1) (i : S64x1.Idx) : k0_pay1 (F := Ideal) v33 v38 v40 i
    = Scalar.select (IntOp.andi (IntOp.andi (v38 i) (v40 i)) (IntOp.xori (Ideal.cmp .one (v33 i) (v33 i)) 1#1)) (wOne - v33 i) wOne := rfl

/-- The block a point stores, at row `a`, is the specification's loss of the rows `a` of the point's two input blocks. -/
theorem out_apply (x0 x1 : Blk) (a : Fin 64) (u : Fin 1) : out0_2 (F := Ideal) x0 x1 (ix2 a u) = rowLoss (rowOf x0 a) (rowOf x1 a) := by
  unfold out0_2
  rw [View.canon_unit_zero hz]
  simp only [View.ld_unit_zero (S := S64x16384) hz]
  rw [chosen, corr01, varOk01, denomPos01, xor_one_eq_not, cmp_one_eq_une]
  unfold rowLoss valid
  rfl

end Cert.Pearson.Kern

end
-- ==== Proof.KernelArray.lean ====
/-
  From the blocks to the array: after the run the kernel's `[1024, 1]` result holds, at row `r`, the specification's
  loss of rows `r` of the two arguments.

  Grid point `t` (of 16) reads rows `64t … 64t + 63` of each argument, all 16384 columns, and writes rows
  `64t … 64t + 63` of the result's one column. So row `a` of a point's input block is row `64t + a` of the argument,
  what the point writes back is its block of the column of row losses, and the sixteen blocks tile the column: row `r`
  lies in the block of point `r / 64`.
-/
import proofs.«176205_j5145370820692_2_alg».proof.Proof.KernelRow

open scoped BigOperators

noncomputable section

namespace Cert.Pearson.Kern

open Cert.KernelIdeal Cert.KernelIdeal.Gen Idealize.ShloMosaic Idealize.ShloMosaic.TcCoe Idealize.ShloMosaic.ValueIdx Idealize.SL.Sem Cert.Pearson
open Idealize.ShloMosaic.Pipeline (Dat)

variable (m : (ℓ : Loc nD τ sig) → Buf (Elt Ideal) ℓ) (ρ : Dev nD → PrngReg)

/-- The row an index of the result column names. -/
def rowIx (i : S1024x1.Idx) : Fin 1024 := ⟨(i 0).val, (i 0).isLt⟩

/-- The column of row losses of two `[1024, 16384]` arrays. -/
def lossCol (x y : S1024x16384.Idx → EReal) : S1024x1.Idx → EReal := fun i =>
  rowLoss (row (a := 1024) (b := 16384) x (rowIx i)) (row (a := 1024) (b := 16384) y (rowIx i))

/-- That column of the two arguments as the region finds them, as contents of the result array. -/
abbrev lossArr (c : Dev nD) : Buf (Elt Ideal) ((c : Thread nD τ).loc main_v0) :=
  lossCol (V m c main_arg0) (V m c main_arg1)

/-- The printed index maps over the grid: every window's block row is the point's number, its block column zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `a` of the first input block at point `t` is row `64t + a` of the first argument. -/
theorem iblk0_row (c : Dev nD) (t : Fin cfg0.N) (a : Fin 64) (r : Fin 1024) (hr : r.val = t.val * 64 + a.val) :
    rowOf (iblk m c 0 t) a = row (a := 1024) (b := 16384) (V m c main_arg0) r := by
  obtain ⟨e0, e1, -, -, -, -⟩ := idx_facts t
  funext k
  show (iblk m c 0 t : Blk) (ix2 a k) = V m c main_arg0 (ix2 r k)
  unfold iblk
  rw [View.read_apply]
  show V m c main_arg0 _ = V m c main_arg0 _
  refine congrArg (V m c main_arg0) ?_
  funext ax; apply Fin.ext
  match ax with
  | ⟨0, _⟩ => show win0_0.index t (0 : Fin 2) * 64 + 1 * a.val = r.val; omega
  | ⟨1, _⟩ => show win0_0.index t (1 : Fin 2) * 16384 + 1 * k.val = k.val; omega

/-- Row `a` of the second input block at point `t` is row `64t + a` of the second argument. -/
theorem iblk1_row (c : Dev nD) (t : Fin cfg0.N) (a : Fin 64) (r : Fin 1024) (hr : r.val = t.val * 64 + a.val) :
    rowOf (iblk m c 1 t) a = row (a := 1024) (b := 16384) (V m c main_arg1) r := by
  obtain ⟨-, -, e2, e3, -, -⟩ := idx_facts t
  funext k
  show (iblk m c 1 t : Blk) (ix2 a k) = V m c main_arg1 (ix2 r k)
  unfold iblk
  rw [View.read_apply]
  show V m c main_arg1 _ = V m c main_arg1 _
  refine congrArg (V m c main_arg1) ?_
  funext ax; apply Fin.ext
  match ax with
  | ⟨0, _⟩ => show win0_1.index t (0 : Fin 2) * 64 + 1 * a.val = r.val; omega
  | ⟨1, _⟩ => show win0_1.index t (1 : Fin 2) * 16384 + 1 * k.val = k.val; omega

/-- What point `t` writes back is its block of the column of row losses. -/
theorem flushed_eq (c : Dev nD) (t : Fin cfg0.N) :
    (dats m 0 c).flushed 2 t = ((cfg0.win 2).blk t).view.read (Elt Ideal) (lossArr m c) := by
  show (cfg0.win 2).cut (grid0.coords t) ((dats m 0 c).after 2 t) = _
  rw [after0_2]
  obtain ⟨-, -, -, -, e4, e5⟩ := idx_facts t
  funext j
  obtain ⟨a, u, rfl⟩ : ∃ (a : Fin 64) (u : Fin 1), j = ix2 a u := ⟨j 0, j 1, eq_ix2 (n0 := 64) (n1 := 1) j⟩
  show out0_2 (F := Ideal) (iblk m c 0 t) (iblk m c 1 t) (ix2 a u)
    = lossCol (V m c main_arg0) (V m c main_arg1) (((cfg0.win 2).blk t).view.emb (ix2 a u))
  refine (out_apply (iblk m c 0 t) (iblk m c 1 t) a u).trans ?_
  have hr : (rowIx (((cfg0.win 2).blk t).view.emb (ix2 a u))).val = t.val * 64 + a.val := by
    show win0_2.index t (0 : Fin 2) * 64 + 1 * a.val = _
    omega
  unfold lossCol
  rw [iblk0_row m c t a _ hr, iblk1_row m c t a _ hr]

/-- An index of the result is in point `t`'s block iff each coordinate is in the block's range on its axis. -/
theorem mem_blk (t : Fin cfg0.N) (i : S1024x1.Idx) :
    i ∈ ((cfg0.win 2).blk t).view.set ↔ ∀ a : Fin 2, win0_2.index t a * S64x1.size a ≤ (i a).val ∧ (i a).val < win0_2.index t a * S64x1.size a + S64x1.size a := by
  show i ∈ ((View.whole main_v0).slice (win0_2.rect t)).set ↔ _
  rw [View.set_slice_whole, Rect.mem_set_unit]
  exact Iff.rfl

/-- The sixteen blocks tile the column: row `r` is in the block of point `r / 64`. -/
theorem cover (i : S1024x1.Idx) : ∃ t : Fin cfg0.N, (cfg0.win 2).flush t = true ∧ i ∈ ((cfg0.win 2).blk t).view.set := by
  have hN : cfg0.N = 16 := N_0
  have h0 : (i 0).val < 1024 := (i 0).isLt
  have h1 : (i 1).val < 1 := (i 1).isLt
  have ht : (i 0).val / 64 < cfg0.N := by rw [hN]; omega
  obtain ⟨-, -, -, -, e4, e5⟩ := idx_facts ⟨(i 0).val / 64, ht⟩
  have e4' : win0_2.index ⟨(i 0).val / 64, ht⟩ (0 : Fin 2) = (i 0).val / 64 := e4
  refine ⟨⟨(i 0).val / 64, ht⟩, flush0_2 _, ?_⟩
  rw [mem_blk]
  intro a
  match a with
  | ⟨0, _⟩ =>
    show win0_2.index ⟨(i 0).val / 64, ht⟩ (0 : Fin 2) * 64 ≤ (i 0).val ∧ (i 0).val < win0_2.index ⟨(i 0).val / 64, ht⟩ (0 : Fin 2) * 64 + 64
    omega
  | ⟨1, _⟩ =>
    show win0_2.index ⟨(i 0).val / 64, ht⟩ (1 : Fin 2) * 1 ≤ (i 1).val ∧ (i 1).val < win0_2.index ⟨(i 0).val / 64, ht⟩ (1 : Fin 2) * 1 + 1
    omega

/-- The result array after the run is the column of row losses of the two arguments. -/
theorem final (c : Dev nD) : (dats m 0 c).arrAt 2 cfg0.N = lossArr m c :=
  (dats m 0 c).arrAt_eq_of_cover 2 (lossArr m c) (fun t _ => flushed_eq m c t) cover

end Cert.Pearson.Kern

end
-- ==== Proof.KernelRun.lean ====
/-
  The kernel's whole run ends with the specification's loss of its two arguments.

  The region leaves the column of the 1024 row losses in its `[1024, 1]` array. The lines after it add the column's
  entries, over both of its axes, onto zero and divide by 1024. A sum over the indices of a one-column matrix is the
  sum over its rows, and the column's entry at row `r` is the loss of rows `r` of the two arguments: so the result is
  the mean over the rows of the row losses.
-/
import proofs.«176205_j5145370820692_2_alg».proof.Proof.KernelArray
import Idealize.ShloMosaic.Lib.StableHlo.Run
import Idealize.ShloMosaic.PureOps.Ideal.Laws

open scoped BigOperators

noncomputable section

namespace Cert.Pearson.Kern

open Cert.KernelIdeal Cert.KernelIdeal.Gen Idealize.ShloMosaic Idealize.ShloMosaic.TcCoe Idealize.ShloMosaic.ValueIdx Idealize.SL.Sem Cert.Pearson
open Idealize.ShloMosaic.StableHlo
open Idealize.ShloMosaic.Pipeline (Dat)

variable (m : (ℓ : Loc nD τ sig) → Buf (Elt Ideal) ℓ) (ρ : Dev nD → PrngReg)

/-- A sum over the indices of a one-column matrix is the sum over its rows. -/
theorem sum_col (f : S1024x1.Idx → EReal) : ∑ i, f i = ∑ r : Fin 1024, f (ix2 r (0 : Fin 1)) := by
  rw [sum_idx2]
  refine Finset.sum_congr rfl fun r _ => ?_
  exact Fin.sum_univ_one _

/-- The column of row losses at row `r`. -/
theorem lossCol_row (x y : S1024x16384.Idx → EReal) (r : Fin 1024) :
    lossCol x y (ix2 r (0 : Fin 1)) = rowLoss (row (a := 1024) (b := 16384) x r) (row (a := 1024) (b := 16384) y r) := rfl

/-- The host's quotient of two scalars' arrays, at an index. -/
theorem hostDivf_apply {s : Shape} {φ : FTy} (x y : FVec Ideal s φ) (i : s.Idx) : Host.divf x y i = Ideal.div (x i) (y i) := rfl

/-- The host's sum of a `[1024, 1]` array over both axes: the initial value plus the sum over every index. -/
theorem sumAll_apply (y : FVec Ideal S1024x1 .f32) (v : FVec Ideal S_ .f32) (i : S_.Idx) :
    Host.reduceAdd (F := Ideal) y v reducesTo_S1024x1_S_d0_1 h_S_ i = v (Shape.Idx.first h_S_) + ∑ j : S1024x1.Idx, y j := by
  simp only [Host.reduceAdd, Ideal.hostReduceAdd_def]
  exact Ideal.hostReduceAdd_total reducesTo_S1024x1_S_d0_1 (fun b => b.elim0) y _ i

/-- What the lines after the region leave in @main's result: the loss of the two arguments. -/
theorem tail_eq (c : Dev nD) :
    Pipeline.afterTail₀ cfgs (dats m) 0 (V0 m) [hostOps1] c main_v2
      = fun _ => loss (m ((c : Thread nD τ).loc main_arg0)) (m ((c : Thread nD τ).loc main_arg1)) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.tc.devRef main_v0) = lossArr m c :=
    (Pipeline.withArrays_arr spec0 launch0.win.arr_inj c _ _ 2).trans (final m c)
  rw [hA]
  funext i
  rw [hostDivf_apply, sumAll_apply, constant_apply, constant_apply, sum_col]
  unfold loss
  refine congrArg (fun s => Ideal.div (wZero + s) wRows) (Finset.sum_congr rfl fun r _ => ?_)
  exact lossCol_row (V m c main_arg0) (V m c main_arg1) r

/-- The kernel's run, read: @main's result at the loss of the two arguments, the arguments unchanged. -/
theorem run : θ_run defs (onTc (τ := τ) (main (F := Ideal))) ⟨m, fun _ => 0, ρ⟩ fun r => ∀ c : Dev nD,
      r.2.mem ((c.tc : Thread nD τ).loc main_v2) = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 rfl (fun w => by fin_cases w <;> decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.Pearson.Kern

end
-- ==== Proof.lean ====
/- The Pearson loss of two `[1024, 16384]` arrays, computed by a row-tiled kernel and by a plain array program, is one
   number over the extended reals.

   Both programs compute, for every row, the mean of the row, the deviations from it, the two sums of squared
   deviations and the cross sum, the correlation (the cross sum over the root of the product of the sums of squares,
   over one where that root is not positive), and `1 - correlation` where both variances exceed `ε`, the root is
   positive and the correlation equals itself, `1` elsewhere; and then the mean of the 1024 row values. They differ in
   three spellings only. The kernel multiplies a row sum by the float `2⁻¹⁴` where the reference divides it by
   `16384`: on every extended real, the infinities included, these are the same number. The kernel keeps each row
   value in a one-column matrix, sixteen blocks of 64 rows, where the reference keeps a vector of 1024: the blocks tile
   the column, and summing the column is summing its rows. The kernel flips the bit "the correlation differs from
   itself" by an exclusive or with one where the reference negates it. Nothing here needs the inputs to be finite.

   The specification is Proof/PearsonSpec.lean; the reference is read into it row by row in Proof/RefIsSpec.lean; a
   grid point's block in Proof/KernelRow.lean, the result array in Proof/KernelArray.lean, and the lines after the
   region with the whole run in Proof/KernelRun.lean. The idealization rewrote no operation, so that claim is trivial;
   the three frames are the generated ones (the reference's is its run with the result dropped). -/
import proofs.«176205_j5145370820692_2_alg».proof.Defs
import proofs.«176205_j5145370820692_2_alg».proof.Proof.Gen.Kernel
import proofs.«176205_j5145370820692_2_alg».proof.Proof.Gen.Kernel.Skeleton
import proofs.«176205_j5145370820692_2_alg».proof.Proof.Gen.Kernel.Launch
import proofs.«176205_j5145370820692_2_alg».proof.Proof.Gen.Kernel.Points
import proofs.«176205_j5145370820692_2_alg».proof.Proof.Gen.Kernel.Frame
import proofs.«176205_j5145370820692_2_alg».proof.Proof.Gen.KernelIdeal
import proofs.«176205_j5145370820692_2_alg».proof.Proof.Gen.KernelIdeal.Skeleton
import proofs.«176205_j5145370820692_2_alg».proof.Proof.Gen.KernelIdeal.Launch
import proofs.«176205_j5145370820692_2_alg».proof.Proof.Gen.KernelIdeal.Points
import proofs.«176205_j5145370820692_2_alg».proof.Proof.Gen.KernelIdeal.Frame
import proofs.«176205_j5145370820692_2_alg».proof.Proof.Gen.ReferenceIdeal
import proofs.«176205_j5145370820692_2_alg».proof.Proof.Gen.ReferenceIdeal.Run
import proofs.«176205_j5145370820692_2_alg».proof.Proof.Gen.ReferenceIdeal.Read
import proofs.«176205_j5145370820692_2_alg».proof.Proof.Gen.Pre_finite_inputs
import proofs.«176205_j5145370820692_2_alg».proof.Proof.RefIsSpec
import proofs.«176205_j5145370820692_2_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two arguments both programs end with the specification's loss of them: the
    kernel by its run read through the region's array and the lines after it, the reference by its run read one
    operation at a time. -/
theorem algebraic : Cert.algebraic_KernelIdeal_ReferenceIdeal := by
  intro m ρ m' ρ' _ hagree
  refine ⟨fun c => fun _ => Cert.Pearson.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.Pearson.Kern.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v43_eq, Cert.Pearson.Ref.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
